-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .bf16⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S1x2, .f32⟩
  | .hbm, ⟨61, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x2.size a ≤ S100000x2.size a
  hwx1_8 : ∀ i : grid1.Coords, EltTy.bits .f32 = 32 ∨ (Rect.block (s := S100000x2) S5000x2.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S5000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel program's run with the final contents of every buffer named.

  The program is four stretches: host operations, the first pallas region (one GraphSAGE layer over 20 blocks of
  5000 nodes), host operations again (the second neighbour aggregation), and the second region (the second layer
  with the linear head fused in).  Every weakly fair execution terminates without a fault, and at the end each
  buffer that outlives the program holds the last of the boundary valuations `W4`: the fold of the host stretches'
  pure results and of what each region's write-backs leave in its arrays.  The result buffer and the ten argument
  buffers are read off that valuation.
-/
import proofs.«140675_j55783035240725_2_alg».proof.Proof.Gen.KernelIdeal.Frame

set_option maxRecDepth 16384

noncomputable section

namespace Cert.KernelIdeal.Gen.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives it ends
    at the last boundary valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result buffer and at the ten arguments: the result is the second region's output
    array after its last write-back, the arguments are as launched. -/
theorem run_result : θ_run defs (onTc (τ := τ) (main (F := F))) ⟨m, fun _ => 0, ρ⟩ (fun r => ∀ c : Dev nD,
      r.2.mem ((c.tc : Thread nD τ).loc main_v41) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v41 (by decide))).trans (W4_arr m ρ c 8),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_all m ρ)

end Cert.KernelIdeal.Gen.RunAll

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay.lean ====
/-
  The two kernel bodies' arithmetic read at one entry of the block they store.

  First body, for a row p of the 5000-row block and a feature q:
      max( ( Σ_k (agg[p,k] · inv[p,0]) · Wl[k,q] + Σ_k x[p,k] · Wr[k,q] ) + b[0,q] , 0 )
  — the neighbour sum scaled by the reciprocal degree, times the left weight, plus the node's own features times the
  right weight, plus the bias row, clamped below at zero.  The second body computes the same hidden row and then
  the head:  Σ_k hidden[p,k] · Wfc[k,j] + bfc[0,j].  At the exact values a change of float format is the identity
  and a matrix product into a zero accumulator is the plain sum over the contracted axis.
-/
import proofs.«140675_j55783035240725_2_alg».proof.Proof.Gen.KernelIdeal.Skeleton
import proofs.«140675_j55783035240725_2_alg».proof.Proof.LibLayoutCol
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Gen.Pay

open Idealize.ShloMosaic Idealize.ShloMosaic.ValueIdx

/-! ## The 128-wide product: [5000,128] × [128,128] -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row p and column q, is the sum over the 128 contracted entries. -/
theorem mmA {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The head's product: [5000,128] × [128,2] -/

theorem lhsB_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhsB_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhsB_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhsB_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The head's product into a zero accumulator, at row p and output j. -/
theorem mmB {φ₁ φ₂ : FTy} (l : FVec Ideal S5000x128 φ₁) (r : FVec Ideal S128x2 φ₂) (p : Fin 5000) (j : Fin 2) :
    matmul dot_S5000x128_S128x2_S5000x2_1_0_0_1_n_n none l r (constant S5000x2 .f32 0x00000000#32) (ix2 p j)
      = ∑ k : Fin 128, l (ix2 p k) * r (ix2 k j) := by
  refine (Ideal.matmul_constant_zero_apply dot_S5000x128_S128x2_S5000x2_1_0_0_1_n_n none l r (ix2 p j)).trans ?_
  rw [← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p j) ((contrEquiv1 dot_S5000x128_S128x2_S5000x2_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x2_S5000x2_1_0_0_1_n_n.rhsIdx (ix2 p j) ((contrEquiv1 dot_S5000x128_S128x2_S5000x2_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## The hidden row both bodies compute -/

/-- The layer's value at row p, feature q, from a block of own features x, of neighbour sums agg, of reciprocal
    degrees inv, the two weights and the bias row. -/
def hiddenAt (x agg : S5000x128.Idx → EReal) (inv : S5000x1.Idx → EReal) (wl wr : S128x128.Idx → EReal)
    (b : S1x128.Idx → EReal) (p : Fin 5000) (q : Fin 128) : EReal :=
  max (((∑ k : Fin 128, (agg (ix2 p k) * inv (ix2 p (0 : Fin 1))) * wl (ix2 k q)) + ∑ k : Fin 128, x (ix2 p k) * wr (ix2 k q))
        + b (ix2 (0 : Fin 1) q))
      (Ideal.ofBits .f32 0x00000000#32)

/-- The first body's stored value at (p, q). -/
theorem pay0_at (v0 v2 : Vec Ideal S5000x128 .f32) (v4 : Vec Ideal S5000x1 .f32) (v9 v11 : Vec Ideal S128x128 .f32)
    (v16 : Vec Ideal S1x128 .f32) (p : Fin 5000) (q : Fin 128) :
    k0_pay1 (F := Ideal) v0 v2 v4 v9 v11 v16 (ix2 p q) = hiddenAt v0 v2 v4 v9 v11 v16 p q := by
  unfold k0_pay1 hiddenAt
  rw [maximumf_apply, addf_apply, addf_apply, mmA, mmA, broadcastTo_1b_ab_apply]
  simp only [truncf_apply, mulf_apply, shapeCast_self, broadcastTo_a1_ab_apply, broadcast_apply]
  rfl

/-- The second body's stored value at (p, j): the head applied to the hidden row. -/
theorem pay1_at (v0 v3 : Vec Ideal S5000x128 .f32) (v5 : Vec Ideal S5000x1 .f32) (v10 v12 : Vec Ideal S128x128 .f32)
    (v17 : Vec Ideal S1x128 .f32) (v24 : Vec Ideal S128x2 .f32) (v27 : Vec Ideal S1x2 .f32) (p : Fin 5000) (j : Fin 2) :
    k1_pay1 (F := Ideal) v0 v3 v5 v10 v12 v17 v24 v27 (ix2 p j)
      = (∑ k : Fin 128, hiddenAt v0 v3 v5 v10 v12 v17 p k * v24 (ix2 k j)) + v27 (ix2 (0 : Fin 1) j) := by
  unfold k1_pay1
  rw [addf_apply, mmB, broadcastTo_1b_ab_apply]
  refine congrArg₂ (· + ·) (Finset.sum_congr rfl fun k _ => ?_) ?_
  · rw [truncf_apply, truncf_apply, maximumf_apply, addf_apply, addf_apply, mmA, mmA, broadcastTo_1b_ab_apply]
    unfold hiddenAt
    simp only [truncf_apply, mulf_apply, shapeCast_self, broadcastTo_a1_ab_apply, broadcast_apply]
    rfl
  · simp only [shapeCast_self]

end Cert.KernelIdeal.Gen.Pay

end
-- ==== Proof.Blocks0.lean ====
/-
  The first region's output array as one function of the arrays the region finds.

  The region runs its body at 20 grid points; point t stages rows 5000·t … 5000·t+4999 of the node features, of the
  neighbour sums and of the reciprocal-degree column, together with the two whole weight matrices and the bias row,
  and writes back rows 5000·t … 5000·t+4999 of the output.  The body's value at a row depends on that row alone, so
  what point t writes back is block t of ONE whole-array function `G0`, and since the 20 blocks tile the 100000 rows
  the array ends holding `G0` of the arrays as the region found them.
-/
import proofs.«140675_j55783035240725_2_alg».proof.Proof.Gen.KernelIdeal.Frame
import proofs.«140675_j55783035240725_2_alg».proof.Proof.Pay
import Idealize.ShloMosaic.Lib.Pipeline.Value
import Idealize.ShloMosaic.Lib.Tactic

set_option maxRecDepth 16384

noncomputable section

namespace Cert.KernelIdeal.Gen.Blk

open Idealize.ShloMosaic Idealize.ShloMosaic.TcCoe Idealize.SL.Sem Idealize.ShloMosaic.ValueIdx
open Idealize.ShloMosaic.Pipeline (Dat)
open Cert.KernelIdeal.Gen.Pay

theorem hz : (![0, 0] : Fin 2 → Nat) = fun _ => 0 := funext fun a => by fin_cases a <;> rfl

/-- Rows 5000·T … 5000·T+4999 of an array of 100000 rows. -/
def rowsOf {C : Nat} (T : Nat) (hT : T < 20) (X : (⟨2, ![100000, C]⟩ : Shape).Idx → EReal) :
    (⟨2, ![5000, C]⟩ : Shape).Idx → EReal :=
  fun y => X (ix2 (⟨T * 5000 + (y 0).val, by have h : (y 0).val < 5000 := (y 0).isLt; omega⟩ : Fin 100000) (y 1))

/-- The layer over whole arrays: row r, feature q. -/
def G0 (X A : S100000x128.Idx → EReal) (inv : S100000x1.Idx → EReal) (wl : S128x128.Idx → EReal)
    (b : S1x128.Idx → EReal) (wr : S128x128.Idx → EReal) : S100000x128.Idx → EReal := fun i =>
  max (((∑ k : Fin 128, (A (ix2 (i 0) k) * inv (ix2 (i 0) (0 : Fin 1))) * wl (ix2 k (i 1))) + ∑ k : Fin 128, X (ix2 (i 0) k) * wr (ix2 k (i 1)))
        + b (ix2 (0 : Fin 1) (i 1)))
      (Ideal.ofBits .f32 0x00000000#32)

/-- The body's value on a block of rows is the layer at those rows. -/
theorem hidden_rows (T : Nat) (hT : T < 20) (X A : S100000x128.Idx → EReal) (inv : S100000x1.Idx → EReal)
    (wl wr : S128x128.Idx → EReal) (b : S1x128.Idx → EReal) (p : Fin 5000) (q : Fin 128) :
    hiddenAt (rowsOf T hT X) (rowsOf T hT A) (rowsOf T hT inv) wl wr b p q
      = G0 X A inv wl b wr (ix2 (⟨T * 5000 + p.val, by have := p.isLt; omega⟩ : Fin 100000) q) := rfl

section Region0

variable (V : (c : Dev nD) → (b : Ref sig .tc) → Buf (Elt Ideal) ((c : Thread nD τ).loc b))

/-- The printed index maps over the grid: the three row-blocked inputs and the output sit at block (t, 0), the
    weights and the bias at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem tlt (t : Fin cfg0.N) : t.val < 20 := by have h := t.isLt; have hN : cfg0.N = 20 := N_0; omega

/-- Input window 0's block at point t: rows of the node features. -/
theorem iblk0_0 (c : Dev nD) (t : Fin cfg0.N) :
    (iblk0 V c 0 t : S5000x128.Idx → EReal) = rowsOf t.val (tlt t) (V c main_arg0 : S100000x128.Idx → EReal) := by
  obtain ⟨⟨e0, e1⟩, -⟩ := idx0 t
  funext y
  unfold iblk0 rowsOf
  rw [View.read_apply]
  show (V c main_arg0 : S100000x128.Idx → EReal) _ = (V c main_arg0 : S100000x128.Idx → EReal) _
  congr 1
  funext a
  apply Fin.ext
  match a with
  | ⟨0, _⟩ => show win0_0.index t 0 * 5000 + 1 * (y 0).val = t.val * 5000 + (y 0).val; rw [e0]; omega
  | ⟨1, _⟩ => show win0_0.index t 1 * 128 + 1 * (y 1).val = (y 1).val; rw [e1]; omega

/-- Input window 1's block at point t: rows of the neighbour sums. -/
theorem iblk0_1 (c : Dev nD) (t : Fin cfg0.N) :
    (iblk0 V c 1 t : S5000x128.Idx → EReal) = rowsOf t.val (tlt t) (V c main_v24 : S100000x128.Idx → EReal) := by
  obtain ⟨-, ⟨e0, e1⟩, -⟩ := idx0 t
  funext y
  unfold iblk0 rowsOf
  rw [View.read_apply]
  show (V c main_v24 : S100000x128.Idx → EReal) _ = (V c main_v24 : S100000x128.Idx → EReal) _
  congr 1
  funext a
  apply Fin.ext
  match a with
  | ⟨0, _⟩ => show win0_1.index t 0 * 5000 + 1 * (y 0).val = t.val * 5000 + (y 0).val; rw [e0]; omega
  | ⟨1, _⟩ => show win0_1.index t 1 * 128 + 1 * (y 1).val = (y 1).val; rw [e1]; omega

/-- Input window 2's block at point t: rows of the reciprocal-degree column. -/
theorem iblk0_2 (c : Dev nD) (t : Fin cfg0.N) :
    (iblk0 V c 2 t : S5000x1.Idx → EReal) = rowsOf t.val (tlt t) (V c main_v12 : S100000x1.Idx → EReal) := by
  obtain ⟨-, -, ⟨e0, e1⟩, -⟩ := idx0 t
  funext y
  unfold iblk0 rowsOf
  rw [View.read_apply]
  show (V c main_v12 : S100000x1.Idx → EReal) _ = (V c main_v12 : S100000x1.Idx → EReal) _
  congr 1
  funext a
  apply Fin.ext
  match a with
  | ⟨0, _⟩ => show win0_2.index t 0 * 5000 + 1 * (y 0).val = t.val * 5000 + (y 0).val; rw [e0]; omega
  | ⟨1, _⟩ => show win0_2.index t 1 * 1 + 1 * (y 1).val = (y 1).val; rw [e1]; omega

/-- Input window 3's block at every point: the whole left weight. -/
theorem iblk0_3 (c : Dev nD) (t : Fin cfg0.N) :
    (iblk0 V c 3 t : S128x128.Idx → EReal) = (V c main_arg2 : S128x128.Idx → EReal) := by
  obtain ⟨-, -, -, ⟨e0, e1⟩, -⟩ := idx0 t
  funext y
  unfold iblk0
  rw [View.read_apply]
  show (V c main_arg2 : S128x128.Idx → EReal) _ = (V c main_arg2 : S128x128.Idx → EReal) y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- Input window 4's block at every point: the whole bias row. -/
theorem iblk0_4 (c : Dev nD) (t : Fin cfg0.N) :
    (iblk0 V c 4 t : S1x128.Idx → EReal) = (V c main_v25 : S1x128.Idx → EReal) := by
  obtain ⟨-, -, -, -, ⟨e0, e1⟩, -⟩ := idx0 t
  funext y
  unfold iblk0
  rw [View.read_apply]
  show (V c main_v25 : S1x128.Idx → EReal) _ = (V c main_v25 : S1x128.Idx → EReal) y
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- Input window 5's block at every point: the whole right weight. -/
theorem iblk0_5 (c : Dev nD) (t : Fin cfg0.N) :
    (iblk0 V c 5 t : S128x128.Idx → EReal) = (V c main_arg4 : S128x128.Idx → EReal) := by
  obtain ⟨-, -, -, -, -, ⟨e0, e1⟩, -⟩ := idx0 t
  funext y
  unfold iblk0
  rw [View.read_apply]
  show (V c main_arg4 : S128x128.Idx → EReal) _ = (V c main_arg4 : S128x128.Idx → EReal) y
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-- The region's output as a function of the arrays it finds. -/
abbrev out0 (c : Dev nD) : S100000x128.Idx → EReal :=
  G0 (V c main_arg0 : S100000x128.Idx → EReal) (V c main_v24 : S100000x128.Idx → EReal) (V c main_v12 : S100000x1.Idx → EReal)
    (V c main_arg2 : S128x128.Idx → EReal) (V c main_v25 : S1x128.Idx → EReal) (V c main_arg4 : S128x128.Idx → EReal)

/-- What point t writes back is block t of the whole-array function. -/
theorem flushed0 (c : Dev nD) (t : Fin cfg0.N) :
    (dat0 V c).flushed 6 t = ((cfg0.win 6).blk t).view.read (Elt Ideal) (out0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, ⟨e0, e1⟩⟩ := idx0 t
  refine funext fun (j : S5000x128.Idx) => ?_
  obtain ⟨p, q, rfl⟩ : ∃ (p : Fin 5000) (q : Fin 128), j = ix2 p q := ⟨j 0, j 1, eq_ix2 j⟩
  have hemb : ((cfg0.win 6).blk t).view.emb (ix2 p q) = (ix2 (⟨t.val * 5000 + p.val, by have := p.isLt; have := tlt t; omega⟩ : Fin 100000) q : S100000x128.Idx) := by
    funext a
    apply Fin.ext
    match a with
    | ⟨0, _⟩ => show win0_6.index t 0 * 5000 + 1 * p.val = t.val * 5000 + p.val; rw [e0]; omega
    | ⟨1, _⟩ => show win0_6.index t 1 * 128 + 1 * q.val = q.val; rw [e1]; omega
  show k0_pay1 (F := Ideal) (iblk0 V c 0 t) (iblk0 V c 1 t) (iblk0 V c 2 t) (iblk0 V c 3 t) (iblk0 V c 5 t) (iblk0 V c 4 t) (ix2 p q)
      = out0 V c (((cfg0.win 6).blk t).view.emb (ix2 p q))
  rw [hemb, pay0_at, iblk0_0, iblk0_1, iblk0_2, iblk0_3, iblk0_4, iblk0_5, hidden_rows]

/-- An index of the array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Row r lies in the block of point r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := by rw [show cfg0.N = 20 from N_0]; omega
  refine ⟨⟨(i 0).val / 5000, ht⟩, flush0_6 _, ?_⟩
  rw [mem_blk0]
  obtain ⟨-, -, -, -, -, -, ⟨e0, e1⟩⟩ := idx0 ⟨(i 0).val / 5000, ht⟩
  intro a
  match a with
  | ⟨0, _⟩ =>
    show win0_6.index ⟨(i 0).val / 5000, ht⟩ 0 * 5000 ≤ (i 0).val ∧ (i 0).val < win0_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ 1 * 128 ≤ (i 1).val ∧ (i 1).val < win0_6.index ⟨(i 0).val / 5000, ht⟩ 1 * 128 + 128
    rw [e1]; omega

/-- The output array after the region's last write-back. -/
theorem final0 (c : Dev nD) : (dat0 V c).arrAt 6 cfg0.N = out0 V c :=
  (dat0 V c).arrAt_eq_of_cover 6 (out0 V c) (fun t _ => flushed0 V c t) (cover0)

end Region0

end Cert.KernelIdeal.Gen.Blk

end
-- ==== Proof.Blocks1.lean ====
/-
  The second region's output array as one function of the arrays the region finds.

  Point t stages rows 5000·t … 5000·t+4999 of the first layer's output, of its neighbour sums and of the
  reciprocal-degree column, with the second layer's two weights and bias row and the head's weight and bias row,
  and writes back rows 5000·t … 5000·t+4999 of the [100000, 2] result: the head applied to the second layer's
  hidden row.  Again each written row depends on its own row only, the 20 blocks tile the rows, and the array ends
  holding the whole-array function `G1`.
-/
import proofs.«140675_j55783035240725_2_alg».proof.Proof.Blocks0

set_option maxRecDepth 16384

noncomputable section

namespace Cert.KernelIdeal.Gen.Blk

open Idealize.ShloMosaic Idealize.ShloMosaic.TcCoe Idealize.SL.Sem Idealize.ShloMosaic.ValueIdx
open Idealize.ShloMosaic.Pipeline (Dat)
open Cert.KernelIdeal.Gen.Pay

/-- The head over the second layer, on whole arrays: row r, output j. -/
def G1 (H A : S100000x128.Idx → EReal) (inv : S100000x1.Idx → EReal) (wl : S128x128.Idx → EReal)
    (b : S1x128.Idx → EReal) (wr : S128x128.Idx → EReal) (wfc : S128x2.Idx → EReal) (bfc : S1x2.Idx → EReal) :
    S100000x2.Idx → EReal := fun i =>
  (∑ k : Fin 128, G0 H A inv wl b wr (ix2 (i 0) k) * wfc (ix2 k (i 1))) + bfc (ix2 (0 : Fin 1) (i 1))

section Region1

variable (V : (c : Dev nD) → (b : Ref sig .tc) → Buf (Elt Ideal) ((c : Thread nD τ).loc b))

/-- The printed index maps over the grid: the three row-blocked inputs and the output sit at block (t, 0), the
    weights and the bias rows at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

theorem tlt1 (t : Fin cfg1.N) : t.val < 20 := by have h := t.isLt; have hN : cfg1.N = 20 := N_1; omega

theorem iblk1_0 (c : Dev nD) (t : Fin cfg1.N) :
    (iblk1 V c 0 t : S5000x128.Idx → EReal) = rowsOf t.val (tlt1 t) (V c main_v26 : S100000x128.Idx → EReal) := by
  obtain ⟨⟨e0, e1⟩, -⟩ := idx1 t
  funext y
  unfold iblk1 rowsOf
  rw [View.read_apply]
  show (V c main_v26 : S100000x128.Idx → EReal) _ = (V c main_v26 : S100000x128.Idx → EReal) _
  congr 1
  funext a
  apply Fin.ext
  match a with
  | ⟨0, _⟩ => show win1_0.index t 0 * 5000 + 1 * (y 0).val = t.val * 5000 + (y 0).val; rw [e0]; omega
  | ⟨1, _⟩ => show win1_0.index t 1 * 128 + 1 * (y 1).val = (y 1).val; rw [e1]; omega

theorem iblk1_1 (c : Dev nD) (t : Fin cfg1.N) :
    (iblk1 V c 1 t : S5000x128.Idx → EReal) = rowsOf t.val (tlt1 t) (V c main_v38 : S100000x128.Idx → EReal) := by
  obtain ⟨-, ⟨e0, e1⟩, -⟩ := idx1 t
  funext y
  unfold iblk1 rowsOf
  rw [View.read_apply]
  show (V c main_v38 : S100000x128.Idx → EReal) _ = (V c main_v38 : S100000x128.Idx → EReal) _
  congr 1
  funext a
  apply Fin.ext
  match a with
  | ⟨0, _⟩ => show win1_1.index t 0 * 5000 + 1 * (y 0).val = t.val * 5000 + (y 0).val; rw [e0]; omega
  | ⟨1, _⟩ => show win1_1.index t 1 * 128 + 1 * (y 1).val = (y 1).val; rw [e1]; omega

theorem iblk1_2 (c : Dev nD) (t : Fin cfg1.N) :
    (iblk1 V c 2 t : S5000x1.Idx → EReal) = rowsOf t.val (tlt1 t) (V c main_v12 : S100000x1.Idx → EReal) := by
  obtain ⟨-, -, ⟨e0, e1⟩, -⟩ := idx1 t
  funext y
  unfold iblk1 rowsOf
  rw [View.read_apply]
  show (V c main_v12 : S100000x1.Idx → EReal) _ = (V c main_v12 : S100000x1.Idx → EReal) _
  congr 1
  funext a
  apply Fin.ext
  match a with
  | ⟨0, _⟩ => show win1_2.index t 0 * 5000 + 1 * (y 0).val = t.val * 5000 + (y 0).val; rw [e0]; omega
  | ⟨1, _⟩ => show win1_2.index t 1 * 1 + 1 * (y 1).val = (y 1).val; rw [e1]; omega

theorem iblk1_3 (c : Dev nD) (t : Fin cfg1.N) :
    (iblk1 V c 3 t : S128x128.Idx → EReal) = (V c main_arg5 : S128x128.Idx → EReal) := by
  obtain ⟨-, -, -, ⟨e0, e1⟩, -⟩ := idx1 t
  funext y
  unfold iblk1
  rw [View.read_apply]
  show (V c main_arg5 : S128x128.Idx → EReal) _ = (V c main_arg5 : S128x128.Idx → EReal) y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem iblk1_4 (c : Dev nD) (t : Fin cfg1.N) :
    (iblk1 V c 4 t : S1x128.Idx → EReal) = (V c main_v39 : S1x128.Idx → EReal) := by
  obtain ⟨-, -, -, -, ⟨e0, e1⟩, -⟩ := idx1 t
  funext y
  unfold iblk1
  rw [View.read_apply]
  show (V c main_v39 : S1x128.Idx → EReal) _ = (V c main_v39 : S1x128.Idx → EReal) y
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

theorem iblk1_5 (c : Dev nD) (t : Fin cfg1.N) :
    (iblk1 V c 5 t : S128x128.Idx → EReal) = (V c main_arg7 : S128x128.Idx → EReal) := by
  obtain ⟨-, -, -, -, -, ⟨e0, e1⟩, -⟩ := idx1 t
  funext y
  unfold iblk1
  rw [View.read_apply]
  show (V c main_arg7 : S128x128.Idx → EReal) _ = (V c main_arg7 : S128x128.Idx → EReal) y
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

theorem iblk1_6 (c : Dev nD) (t : Fin cfg1.N) :
    (iblk1 V c 6 t : S128x2.Idx → EReal) = (V c main_arg8 : S128x2.Idx → EReal) := by
  obtain ⟨-, -, -, -, -, -, ⟨e0, e1⟩, -⟩ := idx1 t
  funext y
  unfold iblk1
  rw [View.read_apply]
  show (V c main_arg8 : S128x2.Idx → EReal) _ = (V c main_arg8 : S128x2.Idx → EReal) y
  congr 1
  funext a
  apply Fin.ext
  match a with
  | ⟨0, _⟩ => show win1_6.index t 0 * 128 + 1 * (y 0).val = (y 0).val; rw [e0]; omega
  | ⟨1, _⟩ => show win1_6.index t 1 * 2 + 1 * (y 1).val = (y 1).val; rw [e1]; omega

theorem iblk1_7 (c : Dev nD) (t : Fin cfg1.N) :
    (iblk1 V c 7 t : S1x2.Idx → EReal) = (V c main_v40 : S1x2.Idx → EReal) := by
  obtain ⟨-, -, -, -, -, -, -, ⟨e0, e1⟩, -⟩ := idx1 t
  funext y
  unfold iblk1
  rw [View.read_apply]
  show (V c main_v40 : S1x2.Idx → EReal) _ = (V c main_v40 : S1x2.Idx → EReal) y
  congr 1
  funext a
  apply Fin.ext
  match a with
  | ⟨0, _⟩ => show win1_7.index t 0 * 1 + 1 * (y 0).val = (y 0).val; rw [e0]; omega
  | ⟨1, _⟩ => show win1_7.index t 1 * 2 + 1 * (y 1).val = (y 1).val; rw [e1]; omega

/-- The region's output as a function of the arrays it finds. -/
abbrev out1 (c : Dev nD) : S100000x2.Idx → EReal :=
  G1 (V c main_v26 : S100000x128.Idx → EReal) (V c main_v38 : S100000x128.Idx → EReal) (V c main_v12 : S100000x1.Idx → EReal)
    (V c main_arg5 : S128x128.Idx → EReal) (V c main_v39 : S1x128.Idx → EReal) (V c main_arg7 : S128x128.Idx → EReal)
    (V c main_arg8 : S128x2.Idx → EReal) (V c main_v40 : S1x2.Idx → EReal)

/-- What point t writes back is block t of the whole-array function. -/
theorem flushed1 (c : Dev nD) (t : Fin cfg1.N) :
    (dat1 V c).flushed 8 t = ((cfg1.win 8).blk t).view.read (Elt Ideal) (out1 V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz,
    View.ld_unit_zero (S := S128x128) hz, View.ld_unit_zero (S := S1x128) hz,
    View.ld_unit_zero (S := S128x2) hz, View.ld_unit_zero (S := S1x2) hz]
  obtain ⟨-, -, -, -, -, -, -, -, ⟨e0, e1⟩⟩ := idx1 t
  refine funext fun (j : S5000x2.Idx) => ?_
  obtain ⟨p, q, rfl⟩ : ∃ (p : Fin 5000) (q : Fin 2), j = ix2 p q := ⟨j 0, j 1, eq_ix2 j⟩
  have hemb : ((cfg1.win 8).blk t).view.emb (ix2 p q) = (ix2 (⟨t.val * 5000 + p.val, by have := p.isLt; have := tlt1 t; omega⟩ : Fin 100000) q : S100000x2.Idx) := by
    funext a
    apply Fin.ext
    match a with
    | ⟨0, _⟩ => show win1_8.index t 0 * 5000 + 1 * p.val = t.val * 5000 + p.val; rw [e0]; omega
    | ⟨1, _⟩ => show win1_8.index t 1 * 2 + 1 * q.val = q.val; rw [e1]; omega
  show k1_pay1 (F := Ideal) (iblk1 V c 0 t) (iblk1 V c 1 t) (iblk1 V c 2 t) (iblk1 V c 3 t) (iblk1 V c 5 t) (iblk1 V c 4 t) (iblk1 V c 6 t) (iblk1 V c 7 t) (ix2 p q)
      = out1 V c (((cfg1.win 8).blk t).view.emb (ix2 p q))
  rw [hemb, pay1_at, iblk1_0, iblk1_1, iblk1_2, iblk1_3, iblk1_4, iblk1_5, iblk1_6, iblk1_7]
  simp only [hidden_rows]
  rfl

/-- An index of the array is in point t's block iff each coordinate is in the block's range on its axis. -/
theorem mem_blk1 (t : Fin cfg1.N) (i : S100000x2.Idx) :
    i ∈ ((cfg1.win 8).blk t).view.set ↔ ∀ a : Fin 2, win1_8.index t a * S5000x2.size a ≤ (i a).val ∧ (i a).val < win1_8.index t a * S5000x2.size a + S5000x2.size a := by
  show i ∈ ((View.whole main_v41).slice (win1_8.rect t)).set ↔ _
  rw [View.set_slice_whole, Rect.mem_set_unit]
  exact Iff.rfl

/-- Row r lies in the block of point r / 5000. -/
theorem cover1 (i : S100000x2.Idx) :
    ∃ t : Fin cfg1.N, (cfg1.win 8).flush t = true ∧ i ∈ ((cfg1.win 8).blk t).view.set := by
  have hi0 : (i 0).val < 100000 := (i 0).isLt
  have hi1 : (i 1).val < 2 := (i 1).isLt
  have ht : (i 0).val / 5000 < cfg1.N := by rw [show cfg1.N = 20 from N_1]; omega
  refine ⟨⟨(i 0).val / 5000, ht⟩, flush1_8 _, ?_⟩
  rw [mem_blk1]
  obtain ⟨-, -, -, -, -, -, -, -, ⟨e0, e1⟩⟩ := idx1 ⟨(i 0).val / 5000, ht⟩
  intro a
  match a with
  | ⟨0, _⟩ =>
    show win1_8.index ⟨(i 0).val / 5000, ht⟩ 0 * 5000 ≤ (i 0).val ∧ (i 0).val < win1_8.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_8.index ⟨(i 0).val / 5000, ht⟩ 1 * 2 ≤ (i 1).val ∧ (i 1).val < win1_8.index ⟨(i 0).val / 5000, ht⟩ 1 * 2 + 2
    rw [e1]; omega

/-- The result array after the region's last write-back. -/
theorem final1 (c : Dev nD) : (dat1 V c).arrAt 8 cfg1.N = out1 V c :=
  (dat1 V c).arrAt_eq_of_cover 8 (out1 V c) (fun t _ => flushed1 V c t) (cover1)

end Region1

end Cert.KernelIdeal.Gen.Blk

end
-- ==== Proof.HostVals.lean ====
/-
  What the host stretches leave in the buffers the two regions read.

  Before the first region the host computes, from the edge list, the source and target columns, the in-degree of
  every node (a scatter-add of ones at the targets), its clamped reciprocal as a column, and the sum of the
  neighbours' feature rows (a gather of the rows at the sources, scatter-added at the targets); a change of float
  format is the identity at the exact values, so these are the same whole-array terms the plain program forms.
  Between the regions it does the same with the first region's output in place of the node features.  Everything
  else the regions read is an argument as launched, or a bias vector viewed as a one-row matrix.
-/
import proofs.«140675_j55783035240725_2_alg».proof.Proof.Gen.KernelIdeal.Frame
import proofs.«140675_j55783035240725_2_alg».proof.Proof.Gen.ReferenceIdeal.Read

set_option maxRecDepth 16384

noncomputable section

namespace Cert.KernelIdeal.Gen.HostV

open Idealize.ShloMosaic Idealize.ShloMosaic.TcCoe Idealize.SL.Sem Idealize.ShloMosaic.StableHlo
open Cert.ReferenceIdeal.Read

/-! ## Congruences: equal operands give equal whole-array results -/

/-- Narrowing a float format is the identity at the exact values. -/
theorem truncf_self {s : Shape} {φ ψ : FTy} (a : FVec Ideal s φ) (h : ψ.bits < φ.bits) : (truncf ψ a h : s.Idx → EReal) = a := rfl
/-- Widening a float format is the identity at the exact values. -/
theorem extf_self {s : Shape} {φ ψ : FTy} (a : FVec Ideal s φ) (h : φ.bits < ψ.bits) : (extf ψ a h : s.Idx → EReal) = a := rfl

theorem scatterAdd_congr {s si u : Shape} {w : Nat} {φ : FTy} (d : ScatterDims s si u) {x x' : FVec Ideal s φ} {i i' : IVec si w}
    {v v' : FVec Ideal u φ} (hx : x = x') (hi : i = i') (hv : v = v') : Host.scatterAdd d x i v = Host.scatterAdd d x' i' v' := by
  subst hx hi hv; rfl
theorem gather_congr {s si t : Shape} {w : Nat} {α : Type} (d : GatherDims s si t) {x x' : s.Idx → α} {i i' : IVec si w}
    (hx : x = x') (hi : i = i') : Host.gather d x i = Host.gather d x' i' := by
  subst hx hi; rfl

variable (m : (ℓ : Loc nD τ sig) → Buf (Elt Ideal) ℓ) (ρ : Dev nD → PrngReg)

/-- The edge list as launched. -/
abbrev edges (c : Dev nD) : (⟨S2x1600000, .i32⟩ : BufTy).Contents (Elt Ideal) := m ((c : Thread nD τ).loc main_arg1)
/-- The node features as launched. -/
abbrev feats (c : Dev nD) : (⟨S100000x128, .f32⟩ : BufTy).Contents (Elt Ideal) := m ((c : Thread nD τ).loc main_arg0)

/-! ## At the first region's entry -/

theorem V1_arg0 (c : Dev nD) : V1 m ρ c main_arg0 = m ((c : Thread nD τ).loc main_arg0) := by
  show StableHlo.after hostOps0 (W0 m ρ c) (Proc.devRef .tc main_arg0) = _
  after_results
  first | done | rfl
theorem V1_arg2 (c : Dev nD) : V1 m ρ c main_arg2 = m ((c : Thread nD τ).loc main_arg2) := by
  show StableHlo.after hostOps0 (W0 m ρ c) (Proc.devRef .tc main_arg2) = _
  after_results
  first | done | rfl
theorem V1_arg4 (c : Dev nD) : V1 m ρ c main_arg4 = m ((c : Thread nD τ).loc main_arg4) := by
  show StableHlo.after hostOps0 (W0 m ρ c) (Proc.devRef .tc main_arg4) = _
  after_results
  first | done | rfl
theorem W1_arg (c : Dev nD) (b : Ref sig .tc) (hb : b = main_arg5 ∨ b = main_arg6 ∨ b = main_arg7 ∨ b = main_arg8 ∨ b = main_arg9) :
    W1 m ρ c (Proc.devRef .tc b) = m ((c : Thread nD τ).loc b) := by
  rcases hb with rfl | rfl | rfl | rfl | rfl <;>
  · show StableHlo.after hostOps0 (W0 m ρ c) (Proc.devRef .tc _) = _
    after_results
    first | done | rfl

/-- The source column. -/
theorem W1_v1 (c : Dev nD) : W1 m ρ c (Proc.devRef .tc main_v1) = val_main_v1 (F := Ideal) (edges m c) := by
  show StableHlo.after hostOps0 (W0 m ρ c) (Proc.devRef .tc main_v1) = _
  after_results
  first | done | rfl
/-- The target column. -/
theorem W1_v3 (c : Dev nD) : W1 m ρ c (Proc.devRef .tc main_v3) = val_main_v3 (F := Ideal) (edges m c) := by
  show StableHlo.after hostOps0 (W0 m ρ c) (Proc.devRef .tc main_v3) = _
  after_results
  first | done | rfl

set_option maxHeartbeats 1600000 in
/-- The neighbour sums of the node features. -/
theorem V1_v24 (c : Dev nD) : V1 m ρ c main_v24 = val_main_v13 (F := Ideal) (feats m c) (edges m c) := by
  show StableHlo.after hostOps0 (W0 m ρ c) (Proc.devRef .tc main_v24) = _
  after_results
  simp only [truncf_self, extf_self]
  unfold val_main_v13 val_main_v10
  refine scatterAdd_congr _ ?_ ?_ (gather_congr _ ?_ ?_)
  · rfl
  · rfl
  · rfl
  · rfl

set_option maxHeartbeats 1600000 in
/-- The reciprocal of the clamped in-degree, as a column. -/
theorem V1_v12 (c : Dev nD) : V1 m ρ c main_v12
    = (shapeCast S100000x1 (Host.divf (F := Ideal) (φ := .f32) (val_main_v18 (F := Ideal)) (val_main_v19 (F := Ideal) (edges m c))) shapeCasts_S100000_S100000x1 : S100000x1.Idx → EReal) := by
  show StableHlo.after hostOps0 (W0 m ρ c) (Proc.devRef .tc main_v12) = _
  after_results
  show (shapeCast S100000x1 (Host.divf (F := Ideal) (φ := .f32) _ (maximumf (F := Ideal) (φ := .f32) _ _)) shapeCasts_S100000_S100000x1 : S100000x1.Idx → EReal) = _
  unfold val_main_v19 val_main_v17
  refine congrArg (fun z => (shapeCast S100000x1 z shapeCasts_S100000_S100000x1 : S100000x1.Idx → EReal)) ?_
  refine congrArg₂ (Host.divf (F := Ideal) (φ := .f32)) ?_ (congrArg₂ (maximumf (F := Ideal) (φ := .f32)) (scatterAdd_congr _ ?_ ?_ ?_) ?_)
  · rfl
  · rfl
  · rfl
  · rfl
  · rfl

/-- The first bias as a one-row matrix. -/
theorem V1_v25 (c : Dev nD) : V1 m ρ c main_v25 = (shapeCast S1x128 (m ((c : Thread nD τ).loc main_arg3)) shapeCasts_S128_S1x128 : S1x128.Idx → EReal) := by
  show StableHlo.after hostOps0 (W0 m ρ c) (Proc.devRef .tc main_v25) = _
  after_results
  first | done | rfl

/-! ## At the second region's entry -/

/-- The first region's output array, which the second stretch and the second region read. -/
abbrev hidden1 (c : Dev nD) : (⟨S100000x128, .f32⟩ : BufTy).Contents (Elt Ideal) := (dat0 (V1 m ρ) c).arrAt 6 cfg0.N

theorem V3_v26 (c : Dev nD) : V3 m ρ c main_v26 = hidden1 m ρ c := by
  show StableHlo.after hostOps1 (W2 m ρ c) (Proc.devRef .tc main_v26) = _
  after_results
  exact W2_arr m ρ c 6

set_option maxHeartbeats 1600000 in
/-- The neighbour sums of the first layer's output. -/
theorem V3_v38 (c : Dev nD) : V3 m ρ c main_v38
    = (Host.scatterAdd (F := Ideal) (φ := .f32) Cert.ReferenceIdeal.scatter_S100000x128_S1600000x1_S1600000x128_1_0_0_1 (val_main_v37 (F := Ideal)) (val_main_v38 (F := Ideal) (edges m c))
        (Host.gather Cert.ReferenceIdeal.gather_S100000x128_S1600000x1_S1600000x128_1_0_n_n_0_1_1128 (hidden1 m ρ c) (val_main_v35 (F := Ideal) (edges m c))) : S100000x128.Idx → EReal) := by
  show StableHlo.after hostOps1 (W2 m ρ c) (Proc.devRef .tc main_v38) = _
  after_results
  rw [W2_of_ne m ρ c main_v3 (by decide), W2_of_ne m ρ c main_v1 (by decide), W2_arr m ρ c 6, W1_v1, W1_v3]
  simp only [truncf_self, extf_self]
  refine scatterAdd_congr _ ?_ ?_ (gather_congr _ ?_ ?_)
  · rfl
  · rfl
  · rfl
  · rfl

theorem V3_v12 (c : Dev nD) : V3 m ρ c main_v12 = V1 m ρ c main_v12 := by
  show StableHlo.after hostOps1 (W2 m ρ c) (Proc.devRef .tc main_v12) = _
  after_results
  exact (W2_arr m ρ c 2).trans (((dat0 (V1 m ρ) c).arrAt_in 2 rfl _).trans (A_eq0 (V1 m ρ) c 2))

theorem V3_arg5 (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  exact W1_arg m ρ c main_arg5 (by simp)
theorem V3_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  exact W1_arg m ρ c main_arg7 (by simp)
theorem V3_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  exact W1_arg m ρ c main_arg8 (by simp)

/-- The second bias as a one-row matrix. -/
theorem V3_v39 (c : Dev nD) : V3 m ρ c main_v39 = (shapeCast S1x128 (m ((c : Thread nD τ).loc main_arg6)) shapeCasts_S128_S1x128 : S1x128.Idx → EReal) := by
  show StableHlo.after hostOps1 (W2 m ρ c) (Proc.devRef .tc main_v39) = _
  after_results
  rw [W2_of_ne m ρ c main_arg6 (by decide), W1_arg m ρ c main_arg6 (by simp)]
  first | done | rfl
/-- The head's bias as a one-row matrix. -/
theorem V3_v40 (c : Dev nD) : V3 m ρ c main_v40 = (shapeCast S1x2 (m ((c : Thread nD τ).loc main_arg9)) shapeCasts_S2_S1x2 : S1x2.Idx → EReal) := by
  show StableHlo.after hostOps1 (W2 m ρ c) (Proc.devRef .tc main_v40) = _
  after_results
  rw [W2_of_ne m ρ c main_arg9 (by decide), W1_arg m ρ c main_arg9 (by simp)]
  first | done | rfl

end Cert.KernelIdeal.Gen.HostV

end
-- ==== Proof.Spec.lean ====
/-
  The mathematics both programs compute, over literal shapes, on the extended reals.

  One GraphSAGE layer with mean aggregation, for a node r and an output feature c:
      relu( ( Σ_k (A[r,k] / dm[r]) · Wl[k,c] + b[c] ) + Σ_k h[r,k] · Wr[k,c] )
  where A is the sum of the neighbours' feature rows, dm[r] = max(deg[r], 1) the clamped in-degree, and h the
  node's own features.  The head is an affine map  Σ_k h[r,k] · Wfc[k,j] + bfc[j].

  One program divides the aggregate by the clamped degree; the other multiplies it by the reciprocal 1/dm[r]
  computed once, and adds the bias after the second product instead of between the two.  Since dm[r] ≥ 1 is never
  zero, a · (1 · dm⁻¹) = a · dm⁻¹ on every extended real (no finiteness is used), and the sums differ only by
  the order of three summands.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

abbrev Snf : Shape := ⟨2, ![100000, 128]⟩
abbrev Sn : Shape := ⟨1, ![100000]⟩
abbrev Sff : Shape := ⟨2, ![128, 128]⟩
abbrev Sf : Shape := ⟨1, ![128]⟩
abbrev Sfo : Shape := ⟨2, ![128, 2]⟩
abbrev So : Shape := ⟨1, ![2]⟩
abbrev Sno : Shape := ⟨2, ![100000, 2]⟩

/-- The f32 word of 1.0 is the extended real 1. -/
theorem one_word : Ideal.ofBits .f32 0x3F800000#32 = 1 := by
  simp [Ideal.ofBits, Ideal.ieee, -EReal.coe_mul]; norm_num

/-- A clamped degree is at least one, so it is not zero. -/
theorem clamp_ne_zero (d : EReal) : max d (Ideal.ofBits .f32 0x3F800000#32) ≠ 0 := by
  rw [one_word]
  exact ne_of_gt (lt_of_lt_of_le zero_lt_one (le_max_right d 1))

/-- Multiplying by the reciprocal of a clamped degree is dividing by it, on every extended real. -/
theorem mul_recip (a d : EReal) :
    a * Ideal.div (Ideal.ofBits .f32 0x3F800000#32) (max d (Ideal.ofBits .f32 0x3F800000#32))
      = Ideal.div a (max d (Ideal.ofBits .f32 0x3F800000#32)) := by
  have h := clamp_ne_zero d
  unfold Ideal.div
  rw [if_neg h, if_neg h, one_word, one_mul]

/-- One layer: relu(((A / dm) · Wl + b) + h · Wr), index by index. -/
def sage (h A : Snf.Idx → EReal) (dm : Sn.Idx → EReal) (Wl : Sff.Idx → EReal) (b : Sf.Idx → EReal)
    (Wr : Sff.Idx → EReal) : Snf.Idx → EReal := fun i =>
  max (((∑ k : Fin 128, Ideal.div (A (ix2 (i 0) k)) (dm (ix1 (i 0))) * Wl (ix2 k (i 1))) + b (ix1 (i 1)))
        + ∑ k : Fin 128, h (ix2 (i 0) k) * Wr (ix2 k (i 1)))
      (Ideal.ofBits .f32 0x00000000#32)

/-- The head: h · Wfc + bfc, index by index. -/
def head (h : Snf.Idx → EReal) (Wfc : Sfo.Idx → EReal) (bfc : So.Idx → EReal) : Sno.Idx → EReal := fun i =>
  (∑ k : Fin 128, h (ix2 (i 0) k) * Wfc (ix2 k (i 1))) + bfc (ix1 (i 1))

/-- The clamped degree of a degree vector. -/
def clamp (deg : Sn.Idx → EReal) : Sn.Idx → EReal := fun j => max (deg j) (Ideal.ofBits .f32 0x3F800000#32)

/-- The layer in the other arrangement — the aggregate times the reciprocal of the clamped degree, the bias added
    last — is the same number. -/
theorem sage_recip_form (h A : Snf.Idx → EReal) (deg : Sn.Idx → EReal) (Wl : Sff.Idx → EReal) (b : Sf.Idx → EReal)
    (Wr : Sff.Idx → EReal) (r : Fin 100000) (c : Fin 128) :
    max (((∑ k : Fin 128, (A (ix2 r k) * Ideal.div (Ideal.ofBits .f32 0x3F800000#32)
              (max (deg (ix1 r)) (Ideal.ofBits .f32 0x3F800000#32))) * Wl (ix2 k c))
          + ∑ k : Fin 128, h (ix2 r k) * Wr (ix2 k c)) + b (ix1 c))
      (Ideal.ofBits .f32 0x00000000#32)
    = sage h A (clamp deg) Wl b Wr (ix2 r c) := by
  unfold sage clamp
  simp only [mul_recip]
  rw [add_right_comm]

end Cert.Sage

end
-- ==== Proof.RefValue.lean ====
/-
  The reference program read as the mathematics of Spec: each of its two layers is one GraphSAGE layer
  (mean aggregation: the scattered neighbour sum divided by the clamped in-degree, a linear map of it plus a
  bias, plus a linear map of the node's own features, then relu), and its last stage is the affine head.

  The neighbour sums and the in-degree vector are kept as whole arrays (which element a gather or a scatter
  reads depends on the edge list's values); everything after them is read element by element.
-/
import proofs.«140675_j55783035240725_2_alg».proof.Proof.Gen.ReferenceIdeal.Read
import proofs.«140675_j55783035240725_2_alg».proof.Proof.Spec

noncomputable section

namespace Cert.RefSage

open Cert.ReferenceIdeal Cert.ReferenceIdeal.Gen Cert.ReferenceIdeal.Read Idealize.ShloMosaic Idealize.ShloMosaic.ValueIdx

/-! ## The generated index maps at an index, by coordinates

A product's element (r, c) reads row r of its left operand and column c of its right one at the contraction
coordinate k; the clamped degree broadcast along the feature axis reads the degree of the row; the bias
broadcast along the node axis reads the bias of the column. -/

theorem lidx23 (i : S100000x128.Idx) (k : Fin 128) :
    lidx_main_v23 i k = ix2 (n0 := 100000) (n1 := 128) (i 0) k :=
  funext fun a => by match a with | ⟨0, _⟩ => rfl | ⟨1, _⟩ => rfl

theorem ridx23 (i : S100000x128.Idx) (k : Fin 128) :
    ridx_main_v23 i k = ix2 (n0 := 128) (n1 := 128) k (i 1) :=
  funext fun a => by match a with | ⟨0, _⟩ => rfl | ⟨1, _⟩ => rfl

theorem lidx27 (i : S100000x128.Idx) (k : Fin 128) :
    lidx_main_v27 i k = ix2 (n0 := 100000) (n1 := 128) (i 0) k :=
  funext fun a => by match a with | ⟨0, _⟩ => rfl | ⟨1, _⟩ => rfl

theorem ridx27 (i : S100000x128.Idx) (k : Fin 128) :
    ridx_main_v27 i k = ix2 (n0 := 128) (n1 := 128) k (i 1) :=
  funext fun a => by match a with | ⟨0, _⟩ => rfl | ⟨1, _⟩ => rfl

theorem lidx49 (i : S100000x128.Idx) (k : Fin 128) :
    lidx_main_v49 i k = ix2 (n0 := 100000) (n1 := 128) (i 0) k :=
  funext fun a => by match a with | ⟨0, _⟩ => rfl | ⟨1, _⟩ => rfl

theorem ridx49 (i : S100000x128.Idx) (k : Fin 128) :
    ridx_main_v49 i k = ix2 (n0 := 128) (n1 := 128) k (i 1) :=
  funext fun a => by match a with | ⟨0, _⟩ => rfl | ⟨1, _⟩ => rfl

theorem lidx53 (i : S100000x128.Idx) (k : Fin 128) :
    lidx_main_v53 i k = ix2 (n0 := 100000) (n1 := 128) (i 0) k :=
  funext fun a => by match a with | ⟨0, _⟩ => rfl | ⟨1, _⟩ => rfl

theorem ridx53 (i : S100000x128.Idx) (k : Fin 128) :
    ridx_main_v53 i k = ix2 (n0 := 128) (n1 := 128) k (i 1) :=
  funext fun a => by match a with | ⟨0, _⟩ => rfl | ⟨1, _⟩ => rfl

theorem lidx56 (i : S100000x2.Idx) (k : Fin 128) :
    lidx_main_v56 i k = ix2 (n0 := 100000) (n1 := 128) (i 0) k :=
  funext fun a => by match a with | ⟨0, _⟩ => rfl | ⟨1, _⟩ => rfl

theorem ridx56 (i : S100000x2.Idx) (k : Fin 128) :
    ridx_main_v56 i k = ix2 (n0 := 128) (n1 := 2) k (i 1) :=
  funext fun a => by match a with | ⟨0, _⟩ => rfl | ⟨1, _⟩ => rfl

theorem didx23 (i : S100000x128.Idx) (k : Fin 128) :
    idx_main_v20 (idx_main_v21 (lidx_main_v23 i k)) = ix1 (n := 100000) (i 0) :=
  funext fun a => by match a with | ⟨0, _⟩ => rfl

theorem didx49 (i : S100000x128.Idx) (k : Fin 128) :
    idx_main_v46 (idx_main_v47 (lidx_main_v49 i k)) = ix1 (n := 100000) (i 0) :=
  funext fun a => by match a with | ⟨0, _⟩ => rfl

theorem bidx25 (i : S100000x128.Idx) :
    idx_main_v24 (idx_main_v25 i) = ix1 (n := 128) (i 1) :=
  funext fun a => by match a with | ⟨0, _⟩ => rfl

theorem bidx51 (i : S100000x128.Idx) :
    idx_main_v50 (idx_main_v51 i) = ix1 (n := 128) (i 1) :=
  funext fun a => by match a with | ⟨0, _⟩ => rfl

theorem bidx58 (i : S100000x2.Idx) :
    idx_main_v57 (idx_main_v58 i) = ix1 (n := 2) (i 1) :=
  funext fun a => by match a with | ⟨0, _⟩ => rfl

/-! ## The three stages -/

/-- The first layer of the reference is one GraphSAGE layer on the input features. -/
theorem layer1 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal)) :
    val_main_v29 (F := Ideal) x0 x1 x2 x3 x4
      = Cert.Sage.sage x0 (val_main_v13 (F := Ideal) x0 x1) (Cert.Sage.clamp (val_main_v17 (F := Ideal) x1)) x2 x3 x4 := by
  funext i
  rw [val_main_v29_apply, val_main_v28_apply, val_main_v26_apply, val_main_v23_apply, val_main_v27_apply,
    val_main_v25_apply, val_main_v24_apply, val_main_call0_v0_apply, val_main_call0_cst_apply,
    Ideal.maximumf_def, Ideal.addf_def, Ideal.addf_def, Ideal.ofBits_def, bidx25 i]
  unfold Cert.Sage.sage Cert.Sage.clamp
  refine congrArg₂ (max : EReal → EReal → EReal)
    (congrArg₂ (· + ·) (congrArg₂ (· + ·) (Finset.sum_congr rfl fun k _ => ?_) rfl)
      (Finset.sum_congr rfl fun k _ => ?_)) rfl
  · rw [val_main_v22_apply, val_main_v21_apply, val_main_v20_apply, val_main_v19_apply, val_main_v18_apply,
      val_main_cst_3_apply, Ideal.hostDivf_def, Ideal.maximumf_def, Ideal.ofBits_def, didx23 i k, lidx23 i k,
      ridx23 i k]
  · rw [lidx27 i k, ridx27 i k]

/-- The second layer of the reference is one GraphSAGE layer on the first layer's output. -/
theorem layer2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal)) :
    val_main_v55 (F := Ideal) x0 x1 x2 x3 x4 x5 x6 x7
      = Cert.Sage.sage (val_main_v29 (F := Ideal) x0 x1 x2 x3 x4) (val_main_v39 (F := Ideal) x0 x1 x2 x3 x4)
          (Cert.Sage.clamp (val_main_v43 (F := Ideal) x1)) x5 x6 x7 := by
  funext i
  rw [val_main_v55_apply, val_main_v54_apply, val_main_v52_apply, val_main_v49_apply, val_main_v53_apply,
    val_main_v51_apply, val_main_v50_apply, val_main_call1_v0_apply, val_main_call1_cst_apply,
    Ideal.maximumf_def, Ideal.addf_def, Ideal.addf_def, Ideal.ofBits_def, bidx51 i]
  unfold Cert.Sage.sage Cert.Sage.clamp
  refine congrArg₂ (max : EReal → EReal → EReal)
    (congrArg₂ (· + ·) (congrArg₂ (· + ·) (Finset.sum_congr rfl fun k _ => ?_) rfl)
      (Finset.sum_congr rfl fun k _ => ?_)) rfl
  · rw [val_main_v48_apply, val_main_v47_apply, val_main_v46_apply, val_main_v45_apply, val_main_v44_apply,
      val_main_cst_9_apply, Ideal.hostDivf_def, Ideal.maximumf_def, Ideal.ofBits_def, didx49 i k, lidx49 i k,
      ridx49 i k]
  · rw [lidx53 i k, ridx53 i k]

/-- The last stage of the reference is the affine head on the second layer's output. -/
theorem head_eq (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128x2, .f32⟩ : BufTy).Contents (Elt Ideal))
    (x9 : (⟨S2, .f32⟩ : BufTy).Contents (Elt Ideal)) :
    val_main_v59 (F := Ideal) x0 x1 x2 x3 x4 x5 x6 x7 x8 x9
      = Cert.Sage.head (val_main_v55 (F := Ideal) x0 x1 x2 x3 x4 x5 x6 x7) x8 x9 := by
  funext i
  rw [val_main_v59_apply, val_main_v56_apply, val_main_v58_apply, val_main_v57_apply, Ideal.addf_def, bidx58 i]
  unfold Cert.Sage.head
  refine congrArg₂ (· + ·) (Finset.sum_congr rfl fun k _ => ?_) rfl
  rw [lidx56 i k, ridx56 i k]

end Cert.RefSage

end
-- ==== Proof.Bridge.lean ====
/-
  The kernel program's result is the plain program's result.

  The first region leaves the layer `G0` of the node features, of their neighbour sums and of the reciprocal clamped
  degree column; read row by row, the column's entry is 1 / max(deg, 1) and the one-row bias is the bias vector, so
  `G0` is the layer of the specification (multiplying by that reciprocal is dividing by the clamped degree, and
  the three summands only change order).  The second stretch of host operations forms the neighbour sums of that
  output exactly as the plain program does of its first layer's output, and the second region leaves the head of
  the second layer.  The plain program's stages are the same functions of the same whole arrays.
-/
import proofs.«140675_j55783035240725_2_alg».proof.Proof.Blocks1
import proofs.«140675_j55783035240725_2_alg».proof.Proof.HostVals
import proofs.«140675_j55783035240725_2_alg».proof.Proof.Spec
import proofs.«140675_j55783035240725_2_alg».proof.Proof.RefValue
import proofs.«140675_j55783035240725_2_alg».proof.Proof.LibLayoutCol
import Idealize.ShloMosaic.Lib.ValueLayout

set_option maxRecDepth 16384

noncomputable section

namespace Cert.KernelIdeal.Gen.Bridge

open Idealize.ShloMosaic Idealize.ShloMosaic.TcCoe Idealize.SL.Sem Idealize.ShloMosaic.ValueIdx
open Cert.ReferenceIdeal.Read Cert.KernelIdeal.Gen.Blk Cert.KernelIdeal.Gen.HostV

/-- The host's quotient of two arrays at an index is the quotient of the entries. -/
theorem hostDivf_at {s : Shape} {φ : FTy} (a b : FVec Ideal s φ) (i : s.Idx) : Host.divf a b i = Ideal.div (a i) (b i) := rfl

/-- The reciprocal column at row r is one over the clamped in-degree of r. -/
theorem inv_at (x1 : (⟨S2x1600000, .i32⟩ : BufTy).Contents (Elt Ideal)) (r : Fin 100000) :
    (shapeCast S100000x1 (Host.divf (F := Ideal) (φ := .f32) (val_main_v18 (F := Ideal)) (val_main_v19 (F := Ideal) x1)) shapeCasts_S100000_S100000x1 : S100000x1.Idx → EReal) (ix2 r (0 : Fin 1))
      = Ideal.div (Ideal.ofBits .f32 0x3F800000#32) (max (val_main_v17 (F := Ideal) x1 (ix1 r)) (Ideal.ofBits .f32 0x3F800000#32)) := by
  rw [shapeCast_a_a1_apply, hostDivf_at, val_main_v19_apply, val_main_v18_apply, val_main_cst_3_apply]
  rfl

/-- The first region's function, at the reciprocal column and the one-row bias the host prepares, is the layer. -/
theorem G0_eq_sage (X A : S100000x128.Idx → EReal) (x1 : (⟨S2x1600000, .i32⟩ : BufTy).Contents (Elt Ideal))
    (wl : S128x128.Idx → EReal) (b : S128.Idx → EReal) (wr : S128x128.Idx → EReal) :
    G0 X A (shapeCast S100000x1 (Host.divf (F := Ideal) (φ := .f32) (val_main_v18 (F := Ideal)) (val_main_v19 (F := Ideal) x1)) shapeCasts_S100000_S100000x1)
        wl (shapeCast S1x128 b shapeCasts_S128_S1x128) wr
      = Cert.Sage.sage X A (Cert.Sage.clamp (val_main_v17 (F := Ideal) x1)) wl b wr := by
  funext i
  obtain ⟨r, q, rfl⟩ : ∃ (r : Fin 100000) (q : Fin 128), i = ix2 r q := ⟨i 0, i 1, eq_ix2 i⟩
  show max (((∑ k : Fin 128, (A (ix2 r k) * (shapeCast S100000x1 (Host.divf (F := Ideal) (φ := .f32) (val_main_v18 (F := Ideal)) (val_main_v19 (F := Ideal) x1)) shapeCasts_S100000_S100000x1 : S100000x1.Idx → EReal) (ix2 r (0 : Fin 1))) * wl (ix2 k q))
        + ∑ k : Fin 128, X (ix2 r k) * wr (ix2 k q)) + (shapeCast S1x128 b shapeCasts_S128_S1x128 : S1x128.Idx → EReal) (ix2 (0 : Fin 1) q))
      (Ideal.ofBits .f32 0x00000000#32) = _
  rw [inv_at, shapeCast_a_1a_apply]
  exact Cert.Sage.sage_recip_form X A (val_main_v17 (F := Ideal) x1) wl b wr r q

/-- The second region's function is the head of the layer it contains. -/
theorem G1_eq_head (H A : S100000x128.Idx → EReal) (inv : S100000x1.Idx → EReal) (wl : S128x128.Idx → EReal) (b : S1x128.Idx → EReal)
    (wr : S128x128.Idx → EReal) (wfc : S128x2.Idx → EReal) (bfc : S2.Idx → EReal) :
    G1 H A inv wl b wr wfc (shapeCast S1x2 bfc shapeCasts_S2_S1x2) = Cert.Sage.head (G0 H A inv wl b wr) wfc bfc := by
  funext i
  obtain ⟨r, j, rfl⟩ : ∃ (r : Fin 100000) (j : Fin 2), i = ix2 r j := ⟨i 0, i 1, eq_ix2 i⟩
  show (∑ k : Fin 128, G0 H A inv wl b wr (ix2 r k) * wfc (ix2 k j)) + (shapeCast S1x2 bfc shapeCasts_S2_S1x2 : S1x2.Idx → EReal) (ix2 (0 : Fin 1) j)
      = (∑ k : Fin 128, G0 H A inv wl b wr (ix2 r k) * wfc (ix2 k j)) + bfc (ix1 j)
  rw [shapeCast_a_1a_apply]

variable (m : (ℓ : Loc nD τ sig) → Buf (Elt Ideal) ℓ) (ρ : Dev nD → PrngReg)

/-- The first region's output array is the plain program's first layer. -/
theorem hidden1_eq (c : Dev nD) : hidden1 m ρ c
    = val_main_v29 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [Cert.RefSage.layer1]
  show (dat0 (V1 m ρ) c).arrAt 6 cfg0.N = _
  rw [final0 (V1 m ρ) c]
  show G0 (V1 m ρ c main_arg0) (V1 m ρ c main_v24) (V1 m ρ c main_v12) (V1 m ρ c main_arg2) (V1 m ρ c main_v25) (V1 m ρ c main_arg4) = _
  rw [V1_arg0, V1_v24, V1_v12, V1_arg2, V1_v25, V1_arg4]
  exact G0_eq_sage _ _ _ _ _ _

/-- The result array after the second region is the plain program's result. -/
theorem result_eq (c : Dev nD) : (dat1 (V3 m ρ) c).arrAt 8 cfg1.N
    = val_main_v59 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  have e39 : val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = (Host.scatterAdd (F := Ideal) (φ := .f32) Cert.ReferenceIdeal.scatter_S100000x128_S1600000x1_S1600000x128_1_0_0_1 (val_main_v37 (F := Ideal)) (val_main_v38 (F := Ideal) (m ((c : Thread nD τ).loc main_arg1)))
          (Host.gather Cert.ReferenceIdeal.gather_S100000x128_S1600000x1_S1600000x128_1_0_n_n_0_1_1128
            (val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v35 (F := Ideal) (m ((c : Thread nD τ).loc main_arg1)))) : S100000x128.Idx → EReal) := by
    unfold val_main_v39 val_main_v36
    rfl
  have e43 : val_main_v43 (F := Ideal) (m ((c : Thread nD τ).loc main_arg1)) = val_main_v17 (F := Ideal) (m ((c : Thread nD τ).loc main_arg1)) := by
    unfold val_main_v43 val_main_v17
    exact scatterAdd_congr _ rfl rfl rfl
  rw [Cert.RefSage.head_eq, Cert.RefSage.layer2, e39, e43, final1 (V3 m ρ) c]
  show G1 (V3 m ρ c main_v26) (V3 m ρ c main_v38) (V3 m ρ c main_v12) (V3 m ρ c main_arg5) (V3 m ρ c main_v39) (V3 m ρ c main_arg7)
      (V3 m ρ c main_arg8) (V3 m ρ c main_v40) = _
  rw [V3_v26, V3_v38, V3_v12, V1_v12, V3_arg5, V3_v39, V3_arg7, V3_arg8, V3_v40, G1_eq_head, G0_eq_sage, hidden1_eq]

end Cert.KernelIdeal.Gen.Bridge

end
-- ==== Proof.lean ====
/-
  A two-layer GraphSAGE network with mean aggregation and a linear head, computed two ways.

  For a node r with features x[r], sources src and targets dst of the edges, one layer is
      relu( ( (Σ_{e : dst e = r} h[src e]) / max(deg r, 1) ) · Wl + b + h[r] · Wr ),   deg r = #{e : dst e = r},
  applied twice (h = x, then h = the first layer's output), followed by  h · Wfc + bfc.

  The plain program forms the neighbour sums by a gather and a scatter-add, divides by the clamped degree, and applies
  the dense maps on whole arrays.  The tiled program forms the same neighbour sums (through a narrower float format,
  which is the identity at the exact values), computes the reciprocal 1 / max(deg, 1) once, and runs the dense part in
  two regions of 20 blocks of 5000 nodes: each multiplies the neighbour sum by the reciprocal, applies the two
  products with a zero accumulator, adds the bias last, clamps at zero, and — in the second region — applies the head.

  At the exact values the two agree entry by entry: the clamped degree is at least one, hence not zero, so
  a · (1 · d⁻¹) = a · d⁻¹ = a / d on every extended real; the three summands of a layer only change order; a product
  into a zero accumulator is the plain sum over the contracted axis; and every written row depends on its own row
  only, so the blocks of each region assemble into one whole-array function.  No finiteness of the inputs is used.
  The tiled program's idealization rewrote no operation, so that conjunct is trivial.
-/
import proofs.«140675_j55783035240725_2_alg».proof.Defs
import proofs.«140675_j55783035240725_2_alg».proof.Proof.Gen.Kernel
import proofs.«140675_j55783035240725_2_alg».proof.Proof.Gen.Kernel.Skeleton
import proofs.«140675_j55783035240725_2_alg».proof.Proof.Gen.Kernel.Launch
import proofs.«140675_j55783035240725_2_alg».proof.Proof.Gen.Kernel.Points
import proofs.«140675_j55783035240725_2_alg».proof.Proof.Gen.Kernel.Frame
import proofs.«140675_j55783035240725_2_alg».proof.Proof.Gen.KernelIdeal
import proofs.«140675_j55783035240725_2_alg».proof.Proof.Gen.KernelIdeal.Skeleton
import proofs.«140675_j55783035240725_2_alg».proof.Proof.Gen.KernelIdeal.Launch
import proofs.«140675_j55783035240725_2_alg».proof.Proof.Gen.KernelIdeal.Points
import proofs.«140675_j55783035240725_2_alg».proof.Proof.Gen.KernelIdeal.Frame
import proofs.«140675_j55783035240725_2_alg».proof.Proof.Gen.ReferenceIdeal
import proofs.«140675_j55783035240725_2_alg».proof.Proof.Gen.ReferenceIdeal.Run
import proofs.«140675_j55783035240725_2_alg».proof.Proof.Gen.ReferenceIdeal.Read
import proofs.«140675_j55783035240725_2_alg».proof.Proof.Gen.Pre_finite_inputs
import proofs.«140675_j55783035240725_2_alg».proof.Proof.KernelRun
import proofs.«140675_j55783035240725_2_alg».proof.Proof.Bridge
import Idealize.ShloMosaic.Adequacy
import Idealize.ShloMosaic.Init

noncomputable section

namespace Cert.Proof

open Idealize.ShloMosaic Idealize.SL.Sem

/-- The tiled program, read at the word level, runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The same program at the exact values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The plain program runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same result array: the tiled program's
    second region leaves the head of the second layer of the first layer, which is the plain program's last stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have hk := (θ_run Cert.KernelIdeal.defs _ _).mono
    (fun r h c => (⟨(h c).1.trans (Cert.KernelIdeal.Gen.Bridge.result_eq m ρ c), (h c).2⟩ : _ ∧ _))
    (Cert.KernelIdeal.Gen.RunAll.run_result (F := Ideal) m ρ)
  refine ⟨_, hk, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq]
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
